-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x16x16x64 : Shape := ⟨4, ![16, 16, 16, 64]⟩
abbrev S16x256x256x64 : Shape := ⟨4, ![16, 256, 256, 64]⟩
abbrev S_ : Shape := ⟨0, ![]⟩

class Facts : Prop where
  bcast_S_S16x16x16x64 : S_.BroadcastsInDim S16x16x16x64 (![] : Fin 0 → Fin S16x16x16x64.rank)
  reducesTo_S16x16x16x64_S_d0_1_2_3 : S16x16x16x64.ReducesTo [0, 1, 2, 3] S_
  h_S_ : 0 < S_.numel
  bcast_S_S16x256x256x64 : S_.BroadcastsInDim S16x256x256x64 (![] : Fin 0 → Fin S16x256x256x64.rank)
  reducesTo_S16x256x256x64_S_d0_1_2_3 : S16x256x256x64.ReducesTo [0, 1, 2, 3] S_

variable [Facts]

def fn {F : FTy → Type} [FloatOps F] (main_arg0 : FVec F S16x16x16x64 .f32) (main_arg1 : FVec F S16x256x256x64 .f32) (main_arg2 : FVec F S16x16x16x64 .f32) : IVec S_ 1 :=
  let main_v0 : FVec F S16x16x16x64 .f32 := Host.absf main_arg0
  let main_cst : FVec F S_ .f32 := constant S_ .f32 0x7F800000#32
  let main_v1 : FVec F S16x16x16x64 .f32 := broadcastInDim S16x16x16x64 ![] bcast_S_S16x16x16x64 main_cst
  let main_v2 : IVec S16x16x16x64 1 := cmpf .olt main_v0 main_v1
  let main_c : IVec S_ 1 := constantI S_ 1 1#1
  let main_v3 : IVec S_ 1 := (fun x v => Host.reduce IntOp.andi x v reducesTo_S16x16x16x64_S_d0_1_2_3 h_S_) main_v2 main_c
  let main_v4 : FVec F S16x256x256x64 .f32 := Host.absf main_arg1
  let main_cst_0 : FVec F S_ .f32 := constant S_ .f32 0x7F800000#32
  let main_v5 : FVec F S16x256x256x64 .f32 := broadcastInDim S16x256x256x64 ![] bcast_S_S16x256x256x64 main_cst_0
  let main_v6 : IVec S16x256x256x64 1 := cmpf .olt main_v4 main_v5
  let main_c_1 : IVec S_ 1 := constantI S_ 1 1#1
  let main_v7 : IVec S_ 1 := (fun x v => Host.reduce IntOp.andi x v reducesTo_S16x256x256x64_S_d0_1_2_3 h_S_) main_v6 main_c_1
  let main_v8 : IVec S_ 1 := andi main_v3 main_v7
  let main_v9 : FVec F S16x16x16x64 .f32 := Host.absf main_arg2
  let main_cst_2 : FVec F S_ .f32 := constant S_ .f32 0x7F800000#32
  let main_v10 : FVec F S16x16x16x64 .f32 := broadcastInDim S16x16x16x64 ![] bcast_S_S16x16x16x64 main_cst_2
  let main_v11 : IVec S16x16x16x64 1 := cmpf .olt main_v9 main_v10
  let main_c_3 : IVec S_ 1 := constantI S_ 1 1#1
  let main_v12 : IVec S_ 1 := (fun x v => Host.reduce IntOp.andi x v reducesTo_S16x16x16x64_S_d0_1_2_3 h_S_) main_v11 main_c_3
  let main_v13 : IVec S_ 1 := andi main_v8 main_v12
  main_v13
-- ==== Kernel.lean ====
abbrev S16x16x16x64 : Shape := ⟨4, ![16, 16, 16, 64]⟩
abbrev S16x256x256x64 : Shape := ⟨4, ![16, 256, 256, 64]⟩
abbrev S_ : Shape := ⟨0, ![]⟩
abbrev S16x256x64 : Shape := ⟨3, ![16, 256, 64]⟩
abbrev S1x64x256x64 : Shape := ⟨4, ![1, 64, 256, 64]⟩
abbrev S1x64x64 : Shape := ⟨3, ![1, 64, 64]⟩
abbrev S1x256x64 : Shape := ⟨3, ![1, 256, 64]⟩
abbrev S1x64x1x64 : Shape := ⟨4, ![1, 64, 1, 64]⟩
abbrev S1x1x256x64 : Shape := ⟨4, ![1, 1, 256, 64]⟩

abbrev nBuf : Space → Nat
  | .hbm => 18
  | .vmem => 8
  | .smem => 0
  | _ => 0

abbrev bufTy : (tb : Table) → Fin (tcTables nBuf tb) → BufTy
  | .hbm, ⟨0, _⟩ => ⟨S16x16x16x64, .f32⟩
  | .hbm, ⟨1, _⟩ => ⟨S16x256x256x64, .f32⟩
  | .hbm, ⟨2, _⟩ => ⟨S16x16x16x64, .f32⟩
  | .hbm, ⟨3, _⟩ => ⟨S_, .f32⟩
  | .hbm, ⟨4, _⟩ => ⟨S16x16x16x64, .f32⟩
  | .hbm, ⟨5, _⟩ => ⟨S16x16x16x64, .i1⟩
  | .hbm, ⟨6, _⟩ => ⟨S_, .f32⟩
  | .hbm, ⟨7, _⟩ => ⟨S16x16x16x64, .f32⟩
  | .hbm, ⟨8, _⟩ => ⟨S16x16x16x64, .f32⟩
  | .hbm, ⟨9, _⟩ => ⟨S_, .f32⟩
  | .hbm, ⟨10, _⟩ => ⟨S16x16x16x64, .f32⟩
  | .hbm, ⟨11, _⟩ => ⟨S16x16x16x64, .f32⟩
  | .hbm, ⟨12, _⟩ => ⟨S_, .f32⟩
  | .hbm, ⟨13, _⟩ => ⟨S16x16x16x64, .f32⟩
  | .hbm, ⟨14, _⟩ => ⟨S16x16x16x64, .i1⟩
  | .hbm, ⟨15, _⟩ => ⟨S16x256x64, .i1⟩
  | .hbm, ⟨16, _⟩ => ⟨S16x256x64, .f32⟩
  | .hbm, ⟨17, _⟩ => ⟨S16x256x256x64, .f32⟩
  | .local _ .vmem, ⟨0, _⟩ => ⟨S1x64x256x64, .f32⟩
  | .local _ .vmem, ⟨1, _⟩ => ⟨S1x64x256x64, .f32⟩
  | .local _ .vmem, ⟨2, _⟩ => ⟨S1x64x64, .f32⟩
  | .local _ .vmem, ⟨3, _⟩ => ⟨S1x64x64, .f32⟩
  | .local _ .vmem, ⟨4, _⟩ => ⟨S1x256x64, .f32⟩
  | .local _ .vmem, ⟨5, _⟩ => ⟨S1x256x64, .f32⟩
  | .local _ .vmem, ⟨6, _⟩ => ⟨S1x64x256x64, .f32⟩
  | .local _ .vmem, ⟨7, _⟩ => ⟨S1x64x256x64, .f32⟩
  | _, _ => ⟨S16x16x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_call0_v0 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x64x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x64x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S16x16x16x64 : S_.BroadcastsInDim S16x16x16x64 (![] : Fin 0 → Fin S16x16x16x64.rank)
  shapeCasts_S16x16x16x64_S16x256x64 : S16x16x16x64.ShapeCasts S16x256x64
  inb_S1x64x256x64_S1x64x256x64_0_0_0_0 : ∀ a, (![0, 0, 0, 0] : Fin 4 → Nat) a + S1x64x256x64.size a ≤ S1x64x256x64.size a
  h_S1x64x256x64 : 0 < S1x64x256x64.numel
  inb_S1x64x64_S1x64x64_0_0_0 : ∀ a, (![0, 0, 0] : Fin 3 → Nat) a + S1x64x64.size a ≤ S1x64x64.size a
  h_S1x64x64 : 0 < S1x64x64.numel
  shapeCasts_S1x64x64_S1x64x64 : S1x64x64.ShapeCasts S1x64x64
  inb_S1x256x64_S1x256x64_0_0_0 : ∀ a, (![0, 0, 0] : Fin 3 → Nat) a + S1x256x64.size a ≤ S1x256x64.size a
  h_S1x256x64 : 0 < S1x256x64.numel
  shapeCasts_S1x256x64_S1x256x64 : S1x256x64.ShapeCasts S1x256x64
  shapeCasts_S1x64x64_S1x64x1x64 : S1x64x64.ShapeCasts S1x64x1x64
  broadcasts_S1x64x1x64_S1x64x256x64 : S1x64x1x64.Broadcasts S1x64x256x64
  shapeCasts_S1x256x64_S1x1x256x64 : S1x256x64.ShapeCasts S1x1x256x64
  broadcasts_S1x1x256x64_S1x64x256x64 : S1x1x256x64.Broadcasts S1x64x256x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x256x64.size a ≤ S16x256x256x64.size a
  hwx0_0 : ∀ i : grid0.Coords, EltTy.bits .f32 = 32 ∨ (Rect.block (s := S16x256x256x64) S1x64x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64.size a ≤ S16x256x64.size a
  hwx0_1 : ∀ i : grid0.Coords, EltTy.bits .f32 = 32 ∨ (Rect.block (s := S16x256x64) S1x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x64.size a ≤ S16x256x64.size a
  hwx0_2 : ∀ i : grid0.Coords, EltTy.bits .f32 = 32 ∨ (Rect.block (s := S16x256x64) S1x256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x256x64.size a ≤ S16x256x256x64.size a
  hwx0_3 : ∀ i : grid0.Coords, EltTy.bits .f32 = 32 ∨ (Rect.block (s := S16x256x256x64) S1x64x256x64.size (cc0_transform_3 i) (hinb0_3 i)).WholeWords (EltTy.packing .f32)

variable [Facts₀]

abbrev win0_0 : Pipeline.Window sig grid0 :=
  Pipeline.Window.ofSpec (Memref.whole main_arg1) S1x64x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x256x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x64x256x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x16x16x64 : Shape := ⟨4, ![16, 16, 16, 64]⟩
abbrev S16x256x256x64 : Shape := ⟨4, ![16, 256, 256, 64]⟩
abbrev S_ : Shape := ⟨0, ![]⟩
abbrev S16x256x64 : Shape := ⟨3, ![16, 256, 64]⟩
abbrev S16x256x1x64 : Shape := ⟨4, ![16, 256, 1, 64]⟩
abbrev S16x1x256x64 : Shape := ⟨4, ![16, 1, 256, 64]⟩

abbrev nBuf : Space → Nat
  | .hbm => 26
  | .vmem => 0
  | .smem => 0
  | _ => 0

abbrev bufTy : (tb : Table) → Fin (tcTables nBuf tb) → BufTy
  | .hbm, ⟨0, _⟩ => ⟨S16x16x16x64, .f32⟩
  | .hbm, ⟨1, _⟩ => ⟨S16x256x256x64, .f32⟩
  | .hbm, ⟨2, _⟩ => ⟨S16x16x16x64, .f32⟩
  | .hbm, ⟨3, _⟩ => ⟨S_, .f32⟩
  | .hbm, ⟨4, _⟩ => ⟨S16x16x16x64, .f32⟩
  | .hbm, ⟨5, _⟩ => ⟨S16x16x16x64, .i1⟩
  | .hbm, ⟨6, _⟩ => ⟨S_, .f32⟩
  | .hbm, ⟨7, _⟩ => ⟨S16x16x16x64, .f32⟩
  | .hbm, ⟨8, _⟩ => ⟨S16x16x16x64, .f32⟩
  | .hbm, ⟨9, _⟩ => ⟨S_, .f32⟩
  | .hbm, ⟨10, _⟩ => ⟨S16x16x16x64, .f32⟩
  | .hbm, ⟨11, _⟩ => ⟨S16x16x16x64, .f32⟩
  | .hbm, ⟨12, _⟩ => ⟨S_, .f32⟩
  | .hbm, ⟨13, _⟩ => ⟨S16x16x16x64, .f32⟩
  | .hbm, ⟨14, _⟩ => ⟨S16x16x16x64, .i1⟩
  | .hbm, ⟨15, _⟩ => ⟨S16x256x64, .i1⟩
  | .hbm, ⟨16, _⟩ => ⟨S16x256x64, .f32⟩
  | .hbm, ⟨17, _⟩ => ⟨S_, .f32⟩
  | .hbm, ⟨18, _⟩ => ⟨S16x256x256x64, .f32⟩
  | .hbm, ⟨19, _⟩ => ⟨S16x256x256x64, .f32⟩
  | .hbm, ⟨20, _⟩ => ⟨S16x256x1x64, .f32⟩
  | .hbm, ⟨21, _⟩ => ⟨S16x256x256x64, .f32⟩
  | .hbm, ⟨22, _⟩ => ⟨S16x256x256x64, .f32⟩
  | .hbm, ⟨23, _⟩ => ⟨S16x1x256x64, .f32⟩
  | .hbm, ⟨24, _⟩ => ⟨S16x256x256x64, .f32⟩
  | .hbm, ⟨25, _⟩ => ⟨S16x256x256x64, .f32⟩
  | _, _ => ⟨S16x16x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_call0_v0 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S_S16x16x16x64 : S_.BroadcastsInDim S16x16x16x64 (![] : Fin 0 → Fin S16x16x16x64.rank)
  shapeCasts_S16x16x16x64_S16x256x64 : S16x16x16x64.ShapeCasts S16x256x64
  bcast_S_S16x256x256x64 : S_.BroadcastsInDim S16x256x256x64 (![] : Fin 0 → Fin S16x256x256x64.rank)
  bcast_S16x256x64_S16x256x1x64_0_1_3 : S16x256x64.BroadcastsInDim S16x256x1x64 (![0, 1, 3] : Fin 3 → Fin S16x256x1x64.rank)
  bcast_S16x256x1x64_S16x256x256x64_0_1_2_3 : S16x256x1x64.BroadcastsInDim S16x256x256x64 (![0, 1, 2, 3] : Fin 4 → Fin S16x256x256x64.rank)
  bcast_S16x256x64_S16x1x256x64_0_2_3 : S16x256x64.BroadcastsInDim S16x1x256x64 (![0, 2, 3] : Fin 3 → Fin S16x1x256x64.rank)
  bcast_S16x1x256x64_S16x256x256x64_0_1_2_3 : S16x1x256x64.BroadcastsInDim S16x256x256x64 (![0, 1, 2, 3] : Fin 4 → Fin S16x256x256x64.rank)

variable [Facts₀]

class Facts : Prop extends Facts₀ where

variable [Facts]
-- ==== Proof.LibSharedFrame.lean ====
/-
  The frame run of a pipeline kernel whose INPUT windows may read one array through several windows.

  The launch theorems for the plainest kernels ask that the windows' arrays be pairwise distinct, so that
  every array is handed to its window at the full share. A kernel that is given one array twice
  (two block specifications over the same operand) does not meet that: the array's full share has to be
  dealt among the windows on it. This module states the frame run for such a kernel once, over the
  launch theorem that lets the certificate say how the shares are dealt (`hsplit`): a kernel with no
  semaphore of its own, whose body carries nothing between points but the scoped buffers that are no
  staging buffer. Its conclusion is the same post as for distinct arrays: every window's array ends at
  what the proof data computes for it, and every other unscoped buffer at what the region found in it.
-/
import Idealize.ShloMosaic.Lib.Pipeline.Frame

noncomputable section

namespace Idealize.ShloMosaic

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe

set_option Elab.async false

namespace Pipeline

open Idealize.ShloMosaic.Rounds

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- The frame run when windows may share arrays. The layout is given by its fields (the staging cells
    distinct, the windows' buffers scoped and unscoped as they should be, no block empty, arrays and staging
    memrefs whole buffers); `hsplit` deals the buffers behind the arrays, each whole at the full share at the
    region-entry contents `V`, to the windows at the shares the proof data name; the body's invariant is
    entered from the scoped buffers that are no staging buffer (`hin`) and gives them back (`hout`). -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro HU
      isplitr [HU]; · iempintro
      iexact HU)
    (hin := fun c => (show _ ⊢ (scopedRest (cfgs p).spec c : sProp 𝕄) from by iintro ⟨-, H⟩; iexact H).trans (hin c))
    (hout := fun c => (hout c).trans (by
      iintro H
      isplitr [H]; · iempintro
      iexact H))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Pipeline

end Idealize.ShloMosaic

end
-- ==== Proof.SigmaRunBits.lean ====
/-
  The run of the masked-covariance kernel's program on the TensorCore, as printed in `Kernel`.

  The program computes, on the host, the scaled and masked mean
      mu_out = where(drop_mask ≥ 0.2, 1.25 · mu_in, 0)
  and the 0/1 indicator mf = [mu_out ≠ 0] reshaped to [16, 256, 64]; then ONE kernel region over the grid
  16 × 4 reads, at point (b, i), the block Sigma[b, 64i .. 64i+63, :, :], the 64 indicator rows
  mf[b, 64i .. 64i+63, :] and all 256 indicator rows mf[b, :, :], and writes
      out[b, 64i + r, j, ch] = Sigma[b, 64i + r, j, ch] · (1.5625 · mf[b, 64i + r, ch]) · mf[b, j, ch].
  The indicator array reaches the kernel through TWO windows (rows of the block, and all rows), so the two
  windows read one array: its full share is dealt to them in halves (`arrays_dealt`).

  This module proves, at any float instance, that every weakly fair execution of the program terminates
  without a fault, that each window's array ends at what the proof data computes (an input array as the region
  found it; the output array overwritten block by block with the body's result at each grid point), and that
  every other buffer the host wrote before the region is as the region found it. The frame claim follows.
-/
import proofs.«157371_j39779987095992_2_alg».proof.Proof.Gen.Kernel.Launch
import proofs.«157371_j39779987095992_2_alg».proof.Proof.Gen.Kernel.Skeleton
import proofs.«157371_j39779987095992_2_alg».proof.Proof.Gen.Kernel.Points
import proofs.«157371_j39779987095992_2_alg».proof.Proof.LibSharedFrame
import Idealize.ShloMosaic.Lib.Pipeline.FrameBody
import Idealize.ShloMosaic.Lib.Ring
import Idealize.ShloMosaic.Lib.Tactic

set_option maxRecDepth 16384

noncomputable section

namespace Cert.Kernel.Sigma

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Facts₀

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- The TensorCore's buffers when the region is entered: the launch contents after the three stretches of host
    operations (the scaling and the comparison; the select; the indicator, its reshape and its conversion). -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- The program up to the region: the host operations run, and the region is entered with the buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds the window's block at every point, whether the pipeline
    fetched it there or not (not fetched, the block index has not moved since the last fetch): for any proof
    data whose array is the region-entry contents and whose body leaves the block in place. Window 0: -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- window 1 (the indicator rows of the block): -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- window 2 (all indicator rows of the batch; fetched only when the batch changes): -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output window's buffer -/

abbrev rS : Rect S1x64x256x64 := Rect.unit (s := S1x64x256x64) ![0, 0, 0, 0] S1x64x256x64.size Facts₀.inb_S1x64x256x64_S1x64x256x64_0_0_0_0
abbrev rI : Rect S1x64x64 := Rect.unit (s := S1x64x64) ![0, 0, 0] S1x64x64.size Facts₀.inb_S1x64x64_S1x64x64_0_0_0
abbrev rJ : Rect S1x256x64 := Rect.unit (s := S1x256x64) ![0, 0, 0] S1x256x64.size Facts₀.inb_S1x256x64_S1x256x64_0_0_0

/-- The output window's staging buffer after the body: its one whole-buffer store of the body's product, computed
    from the three input blocks. -/
def outBlock (x0 : Vec F S1x64x256x64 .f32) (x1 : Vec F S1x64x64 .f32) (x2 : Vec F S1x256x64 .f32) : Vec F S1x64x256x64 .f32 :=
  View.canon [⟨rS, k0_pay1 (View.ld x0 rS) (View.ld x1 rI) (View.ld x2 rJ)⟩]

/-- The one store covers the buffer. -/
theorem outBlock_cover (p0 : Vec F S1x64x256x64 .f32) (y : S1x64x256x64.Idx) :
    ∃ pc ∈ ([⟨rS, p0⟩] : List (View.Piece (Elt F) S1x64x256x64 .f32)), y ∈ pc.1.set :=
  View.cover_of_tiled [⟨rS, p0⟩] S1x64x256x64.size (by rfl) y

/-! ## The body's triple -/

set_option maxHeartbeats 1000000 in
/-- The kernel body on whole staging memrefs, the inputs' at read contents `x0 x1 x2` and the output's at anything,
    runs to the continuation holding the inputs' as they were and the output's at `outBlock` of the inputs'. -/
theorem sound_kernel (c : Dev nD) (E : Set ℕ) (i : grid0.Coords)
    (arg2 : Memref sig .tc .vmem S1x64x256x64 .f32) (harg2 : arg2.IsWhole) (arg3 : Memref sig .tc .vmem S1x64x64 .f32) (harg3 : arg3.IsWhole)
    (arg4 : Memref sig .tc .vmem S1x256x64 .f32) (harg4 : arg4.IsWhole) (arg5 : Memref sig .tc .vmem S1x64x256x64 .f32) (harg5 : arg5.IsWhole)
    (x0 : Vec F S1x64x256x64 .f32) (x1 : Vec F S1x64x64 .f32) (x2 : Vec F S1x256x64 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outBlock x0 x1 x2)) -∗ K ⟨⟩))
      ⊢ wp frame (wpE (defs₀ (F := F)) Variants.none c none) E (cc0__sigma_kernel i arg2 harg2 arg3 harg3 arg4 harg4 arg5 harg5) K := by
  simp only [cc0__sigma_kernel_eq_skeleton]; unfold cc0__sigma_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outBlock_cover _)

/-! ## The proof data -/

/-- The proof data on core `c`: the arrays as the region finds them; after the body at point `t` each input's
    buffer at its block and the output's at `outBlock` of the three input blocks; the body keeps nothing between
    points but the scoped buffers that are no staging buffer; nothing owed. The indicator array is read by
    windows 1 and 2, each holding one half of its share; the other input and the output hold theirs whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.scopedRest (Ix := Unit) (Name := ℕ) (U := UR sig nD τ) (Lvl := ℕ) (Val := Elt F) spec0 c
  q w := match w with
    | ⟨0, _⟩ => fullShare
    | ⟨1, _⟩ => fullShare.left
    | ⟨2, _⟩ => fullShare.right
    | ⟨3, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outBlock (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so `sound_kernel` applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

end Cert.Kernel.Sigma

end
-- ==== Proof.SigmaFrameBits.lean ====
/-
  The frame of the program printed in `Kernel`: every weakly fair execution terminates without a fault and
  the three argument arrays end as launched.

  The indicator array `mf` is read by two windows. At the region's entry its buffer is held whole; it is
  dealt to the two windows in halves of the full share (`arrays_dealt`), the covariance operand and the
  result each to its one window whole. The run then follows from the launch theorem for windows that share
  arrays. The argument `Sigma_in` is an input window's array, never written back; `mu_in` and `drop_mask`
  are no window's array and pass the region by.
-/
import proofs.«157371_j39779987095992_2_alg».proof.Proof.SigmaRunBits

set_option maxRecDepth 16384

noncomputable section

namespace Cert.Kernel.Sigma

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays are three: the covariance operand, the indicator, the result. -/
theorem arrRefs_eq : (Finset.univ.image (Pipeline.arrRef spec0) : Finset (Ref sig .tc)) = [main_arg1, main_v8, main_v9].toFinset := by decide

/-- The three buffers behind the windows' arrays, each whole at the full share at the region-entry contents,
    dealt to the four windows: the indicator's full share in halves to the two windows that read it. -/
theorem arrays_dealt (c : Dev nD) :
    (Pipeline.arrBufs spec0 c (V m c) : sProp 𝕄) ⊢ (dats m 0 c).arrays ((dats m 0 c).arrAt · 0) := by
  unfold Pipeline.arrBufs Dat.arrays
  rw [bigSep_eq_bigSepL_of_eq [main_arg1, main_v8, main_v9] arrRefs_eq (by decide), bigSep_W0]
  simp only [bigSepL_cons_cons, bigSepL_singleton]
  have s0 : (dats m 0 c).share 0 = fullShare := rfl
  have s1 : (dats m 0 c).share 1 = fullShare.left := rfl
  have s2 : (dats m 0 c).share 2 = fullShare.right := rfl
  have s3 : (dats m 0 c).share 3 = fullShare := rfl
  have a0 : (dats m 0 c).arrAt 0 0 = V m c main_arg1 := A_eq m c 0
  have a1 : (dats m 0 c).arrAt 1 0 = V m c main_v8 := A_eq m c 1
  have a2 : (dats m 0 c).arrAt 2 0 = V m c main_v8 := A_eq m c 2
  have a3 : (dats m 0 c).arrAt 3 0 = V m c main_v9 := A_eq m c 3
  rw [s0, s1, s2, s3, a0, a1, a2, a3, (Memref.isWhole_whole main_arg1).set_eq_univ, (Memref.isWhole_whole main_v8).set_eq_univ,
    (Memref.isWhole_whole main_v9).set_eq_univ]
  show iprop((((c : Thread nD τ).loc main_arg1) ↦{fullShare} V m c main_arg1) ∗ (((c : Thread nD τ).loc main_v8) ↦{fullShare} V m c main_v8)
      ∗ (((c : Thread nD τ).loc main_v9) ↦{fullShare} V m c main_v9)) ⊢ _
  iintro ⟨HS, HM, HO⟩
  ihave HMs := (pointsTo_share (PosShare.mem_left_op_right fullShare)).1 $$ HM
  icases HMs with ⟨HMl, HMr⟩
  isplitl [HS]; · iexact HS
  isplitl [HMl]; · iexact HMl
  isplitl [HMr]; · iexact HMr
  iexact HO

/-! ## The run -/

set_option backward.isDefEq.respectTransparency.types false in
/-- Every weakly fair execution of the program terminates without a fault; every window's array ends at what the
    proof data computes, and every other buffer the host wrote before the region as the region found it. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := arrays_dealt m) (hin := fun _ => .rfl) (hout := fun _ => .rfl)

/-- After the run the covariance operand is as launched: an input window stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 0).trans (((dats m 0 c).arrAt_in 0 rfl _).trans ((A_eq m c 0).trans (V_main_arg1 m c)))

/-- The mean and the mask are no window's array: they pass the region by. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨kept_main_arg0 m r h c, kept_main_arg1 m r h c, kept_main_arg2 m r h c⟩) (run_main m ρ)

end Cert.Kernel.Sigma

end
-- ==== Proof.SigmaRunIdeal.lean ====
/-
  The run of the masked-covariance kernel's program on the TensorCore, as printed in `KernelIdeal`.

  The program computes, on the host, the scaled and masked mean
      mu_out = where(drop_mask ≥ 0.2, 1.25 · mu_in, 0)
  and the 0/1 indicator mf = [mu_out ≠ 0] reshaped to [16, 256, 64]; then ONE kernel region over the grid
  16 × 4 reads, at point (b, i), the block Sigma[b, 64i .. 64i+63, :, :], the 64 indicator rows
  mf[b, 64i .. 64i+63, :] and all 256 indicator rows mf[b, :, :], and writes
      out[b, 64i + r, j, ch] = Sigma[b, 64i + r, j, ch] · (1.5625 · mf[b, 64i + r, ch]) · mf[b, j, ch].
  The indicator array reaches the kernel through TWO windows (rows of the block, and all rows), so the two
  windows read one array: its full share is dealt to them in halves (`arrays_dealt`).

  This module proves, at any float instance, that every weakly fair execution of the program terminates
  without a fault, that each window's array ends at what the proof data computes (an input array as the region
  found it; the output array overwritten block by block with the body's result at each grid point), and that
  every other buffer the host wrote before the region is as the region found it. The frame claim follows.
-/
import proofs.«157371_j39779987095992_2_alg».proof.Proof.Gen.KernelIdeal.Launch
import proofs.«157371_j39779987095992_2_alg».proof.Proof.Gen.KernelIdeal.Skeleton
import proofs.«157371_j39779987095992_2_alg».proof.Proof.Gen.KernelIdeal.Points
import proofs.«157371_j39779987095992_2_alg».proof.Proof.LibSharedFrame
import Idealize.ShloMosaic.Lib.Pipeline.FrameBody
import Idealize.ShloMosaic.Lib.Ring
import Idealize.ShloMosaic.Lib.Tactic

set_option maxRecDepth 16384

noncomputable section

namespace Cert.KernelIdeal.Sigma

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Facts₀

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- The TensorCore's buffers when the region is entered: the launch contents after the three stretches of host
    operations (the scaling and the comparison; the select; the indicator, its reshape and its conversion). -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- The program up to the region: the host operations run, and the region is entered with the buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds the window's block at every point, whether the pipeline
    fetched it there or not (not fetched, the block index has not moved since the last fetch): for any proof
    data whose array is the region-entry contents and whose body leaves the block in place. Window 0: -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- window 1 (the indicator rows of the block): -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- window 2 (all indicator rows of the batch; fetched only when the batch changes): -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output window's buffer -/

abbrev rS : Rect S1x64x256x64 := Rect.unit (s := S1x64x256x64) ![0, 0, 0, 0] S1x64x256x64.size Facts₀.inb_S1x64x256x64_S1x64x256x64_0_0_0_0
abbrev rI : Rect S1x64x64 := Rect.unit (s := S1x64x64) ![0, 0, 0] S1x64x64.size Facts₀.inb_S1x64x64_S1x64x64_0_0_0
abbrev rJ : Rect S1x256x64 := Rect.unit (s := S1x256x64) ![0, 0, 0] S1x256x64.size Facts₀.inb_S1x256x64_S1x256x64_0_0_0

/-- The output window's staging buffer after the body: its one whole-buffer store of the body's product, computed
    from the three input blocks. -/
def outBlock (x0 : Vec F S1x64x256x64 .f32) (x1 : Vec F S1x64x64 .f32) (x2 : Vec F S1x256x64 .f32) : Vec F S1x64x256x64 .f32 :=
  View.canon [⟨rS, k0_pay1 (View.ld x0 rS) (View.ld x1 rI) (View.ld x2 rJ)⟩]

/-- The one store covers the buffer. -/
theorem outBlock_cover (p0 : Vec F S1x64x256x64 .f32) (y : S1x64x256x64.Idx) :
    ∃ pc ∈ ([⟨rS, p0⟩] : List (View.Piece (Elt F) S1x64x256x64 .f32)), y ∈ pc.1.set :=
  View.cover_of_tiled [⟨rS, p0⟩] S1x64x256x64.size (by rfl) y

/-! ## The body's triple -/

set_option maxHeartbeats 1000000 in
/-- The kernel body on whole staging memrefs, the inputs' at read contents `x0 x1 x2` and the output's at anything,
    runs to the continuation holding the inputs' as they were and the output's at `outBlock` of the inputs'. -/
theorem sound_kernel (c : Dev nD) (E : Set ℕ) (i : grid0.Coords)
    (arg2 : Memref sig .tc .vmem S1x64x256x64 .f32) (harg2 : arg2.IsWhole) (arg3 : Memref sig .tc .vmem S1x64x64 .f32) (harg3 : arg3.IsWhole)
    (arg4 : Memref sig .tc .vmem S1x256x64 .f32) (harg4 : arg4.IsWhole) (arg5 : Memref sig .tc .vmem S1x64x256x64 .f32) (harg5 : arg5.IsWhole)
    (x0 : Vec F S1x64x256x64 .f32) (x1 : Vec F S1x64x64 .f32) (x2 : Vec F S1x256x64 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outBlock x0 x1 x2)) -∗ K ⟨⟩))
      ⊢ wp frame (wpE (defs₀ (F := F)) Variants.none c none) E (cc0__sigma_kernel i arg2 harg2 arg3 harg3 arg4 harg4 arg5 harg5) K := by
  simp only [cc0__sigma_kernel_eq_skeleton]; unfold cc0__sigma_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outBlock_cover _)

/-! ## The proof data -/

/-- The proof data on core `c`: the arrays as the region finds them; after the body at point `t` each input's
    buffer at its block and the output's at `outBlock` of the three input blocks; the body keeps nothing between
    points but the scoped buffers that are no staging buffer; nothing owed. The indicator array is read by
    windows 1 and 2, each holding one half of its share; the other input and the output hold theirs whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.scopedRest (Ix := Unit) (Name := ℕ) (U := UR sig nD τ) (Lvl := ℕ) (Val := Elt F) spec0 c
  q w := match w with
    | ⟨0, _⟩ => fullShare
    | ⟨1, _⟩ => fullShare.left
    | ⟨2, _⟩ => fullShare.right
    | ⟨3, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outBlock (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so `sound_kernel` applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

end Cert.KernelIdeal.Sigma

end
-- ==== Proof.SigmaFrameIdeal.lean ====
/-
  The frame of the program printed in `KernelIdeal`: every weakly fair execution terminates without a fault and
  the three argument arrays end as launched.

  The indicator array `mf` is read by two windows. At the region's entry its buffer is held whole; it is
  dealt to the two windows in halves of the full share (`arrays_dealt`), the covariance operand and the
  result each to its one window whole. The run then follows from the launch theorem for windows that share
  arrays. The argument `Sigma_in` is an input window's array, never written back; `mu_in` and `drop_mask`
  are no window's array and pass the region by.
-/
import proofs.«157371_j39779987095992_2_alg».proof.Proof.SigmaRunIdeal

set_option maxRecDepth 16384

noncomputable section

namespace Cert.KernelIdeal.Sigma

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays are three: the covariance operand, the indicator, the result. -/
theorem arrRefs_eq : (Finset.univ.image (Pipeline.arrRef spec0) : Finset (Ref sig .tc)) = [main_arg1, main_v8, main_v9].toFinset := by decide

/-- The three buffers behind the windows' arrays, each whole at the full share at the region-entry contents,
    dealt to the four windows: the indicator's full share in halves to the two windows that read it. -/
theorem arrays_dealt (c : Dev nD) :
    (Pipeline.arrBufs spec0 c (V m c) : sProp 𝕄) ⊢ (dats m 0 c).arrays ((dats m 0 c).arrAt · 0) := by
  unfold Pipeline.arrBufs Dat.arrays
  rw [bigSep_eq_bigSepL_of_eq [main_arg1, main_v8, main_v9] arrRefs_eq (by decide), bigSep_W0]
  simp only [bigSepL_cons_cons, bigSepL_singleton]
  have s0 : (dats m 0 c).share 0 = fullShare := rfl
  have s1 : (dats m 0 c).share 1 = fullShare.left := rfl
  have s2 : (dats m 0 c).share 2 = fullShare.right := rfl
  have s3 : (dats m 0 c).share 3 = fullShare := rfl
  have a0 : (dats m 0 c).arrAt 0 0 = V m c main_arg1 := A_eq m c 0
  have a1 : (dats m 0 c).arrAt 1 0 = V m c main_v8 := A_eq m c 1
  have a2 : (dats m 0 c).arrAt 2 0 = V m c main_v8 := A_eq m c 2
  have a3 : (dats m 0 c).arrAt 3 0 = V m c main_v9 := A_eq m c 3
  rw [s0, s1, s2, s3, a0, a1, a2, a3, (Memref.isWhole_whole main_arg1).set_eq_univ, (Memref.isWhole_whole main_v8).set_eq_univ,
    (Memref.isWhole_whole main_v9).set_eq_univ]
  show iprop((((c : Thread nD τ).loc main_arg1) ↦{fullShare} V m c main_arg1) ∗ (((c : Thread nD τ).loc main_v8) ↦{fullShare} V m c main_v8)
      ∗ (((c : Thread nD τ).loc main_v9) ↦{fullShare} V m c main_v9)) ⊢ _
  iintro ⟨HS, HM, HO⟩
  ihave HMs := (pointsTo_share (PosShare.mem_left_op_right fullShare)).1 $$ HM
  icases HMs with ⟨HMl, HMr⟩
  isplitl [HS]; · iexact HS
  isplitl [HMl]; · iexact HMl
  isplitl [HMr]; · iexact HMr
  iexact HO

/-! ## The run -/

set_option backward.isDefEq.respectTransparency.types false in
/-- Every weakly fair execution of the program terminates without a fault; every window's array ends at what the
    proof data computes, and every other buffer the host wrote before the region as the region found it. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := arrays_dealt m) (hin := fun _ => .rfl) (hout := fun _ => .rfl)

/-- After the run the covariance operand is as launched: an input window stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 0).trans (((dats m 0 c).arrAt_in 0 rfl _).trans ((A_eq m c 0).trans (V_main_arg1 m c)))

/-- The mean and the mask are no window's array: they pass the region by. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨kept_main_arg0 m r h c, kept_main_arg1 m r h c, kept_main_arg2 m r h c⟩) (run_main m ρ)

end Cert.KernelIdeal.Sigma

end
-- ==== Proof.SigmaValue.lean ====
/-
  What the masked-covariance kernel computes, read at the ideal instance, and that the reference computes the same.

  Write k = 1.5625 (the word 0x3FC80000), S = Sigma_in, and M for the indicator array
      M[b, p, ch] = [where(drop_mask ≥ 0.2, 1.25 · mu_in, 0) ≠ 0]  reshaped from [16,16,16,64] to [16,256,64],
  which BOTH programs compute on the host by the same operations. At grid point (b, i) the kernel's body
  stores, at block index (0, r, j, ch),
      S_blk[0, r, j, ch] · (k · Mi_blk[0, r, ch]) · Mj_blk[0, j, ch],
  the three blocks being S[b, 64i + r, j, ch], M[b, 64i + r, ch] and M[b, j, ch]. The 64 blocks tile the result
  array, so the kernel's result at (b, p, j, ch) is  S[b,p,j,ch] · (k · M[b,p,ch]) · M[b,j,ch]. The reference
  computes  ((k · S[b,p,j,ch]) · M[b,p,ch]) · M[b,j,ch]. The two agree on every extended real by commutativity
  and associativity of the product alone; no finiteness is used.
-/
import proofs.«157371_j39779987095992_2_alg».proof.Proof.SigmaFrameIdeal
import proofs.«157371_j39779987095992_2_alg».proof.Proof.Gen.ReferenceIdeal.Read
import Idealize.ShloMosaic.Lib.ValueIdx
import Idealize.ShloMosaic.Lib.Pipeline.Value
import Idealize.ShloMosaic.PureOps.Ideal.Laws

set_option maxRecDepth 16384

noncomputable section

namespace Cert.KernelIdeal.SigmaValue

open Idealize.ShloMosaic Idealize.ShloMosaic.TcCoe Idealize.SL.Sem
open Idealize.ShloMosaic.Pipeline (Dat Cfg Window)
open Idealize.ShloMosaic.ValueIdx
open Cert.KernelIdeal Cert.KernelIdeal.Gen Cert.KernelIdeal.Sigma

/-- The scale k = 1.5625 as an extended real (its f32 word is never evaluated: both programs carry the same word). -/
abbrev kk : Ideal .f32 := FloatOps.ofBits (F := Ideal) .f32 0x3FC80000#32

/-! ## Layout steps of the body, read at an index -/

/-- A row vector [1,64,1,64] broadcast along the column axis to [1,64,256,64], read at (0, r, j, ch): the row entry. -/
theorem bcast_row (v : S1x64x1x64.Idx → Ideal .f32) (h : S1x64x1x64.Broadcasts S1x64x256x64) (r : Fin 64) (j : Fin 256) (ch : Fin 64) :
    broadcastTo S1x64x256x64 v h (ix4 (0 : Fin 1) r j ch) = v (ix4 (0 : Fin 1) r (0 : Fin 1) ch) :=
  broadcastTo_apply v h (ix4 (0 : Fin 1) r j ch) (ix4 (0 : Fin 1) r (0 : Fin 1) ch) (fun a => match a with
    | ⟨0, _⟩ => by show (0 : Nat) = if (1 : Nat) = 1 then 0 else _; rw [if_pos rfl]
    | ⟨1, _⟩ => by show r.val = if (64 : Nat) = 1 then 0 else r.val; rw [if_neg (by decide)]
    | ⟨2, _⟩ => by show (0 : Nat) = if (1 : Nat) = 1 then 0 else _; rw [if_pos rfl]
    | ⟨3, _⟩ => by show ch.val = if (64 : Nat) = 1 then 0 else ch.val; rw [if_neg (by decide)])

/-- A column vector [1,1,256,64] broadcast along the row axis to [1,64,256,64], read at (0, r, j, ch): the column entry. -/
theorem bcast_col (v : S1x1x256x64.Idx → Ideal .f32) (h : S1x1x256x64.Broadcasts S1x64x256x64) (r : Fin 64) (j : Fin 256) (ch : Fin 64) :
    broadcastTo S1x64x256x64 v h (ix4 (0 : Fin 1) r j ch) = v (ix4 (0 : Fin 1) (0 : Fin 1) j ch) :=
  broadcastTo_apply v h (ix4 (0 : Fin 1) r j ch) (ix4 (0 : Fin 1) (0 : Fin 1) j ch) (fun a => match a with
    | ⟨0, _⟩ => by show (0 : Nat) = if (1 : Nat) = 1 then 0 else _; rw [if_pos rfl]
    | ⟨1, _⟩ => by show (0 : Nat) = if (1 : Nat) = 1 then 0 else _; rw [if_pos rfl]
    | ⟨2, _⟩ => by show j.val = if (256 : Nat) = 1 then 0 else j.val; rw [if_neg (by decide)]
    | ⟨3, _⟩ => by show ch.val = if (64 : Nat) = 1 then 0 else ch.val; rw [if_neg (by decide)])

/-- [1,64,64] cast to [1,64,1,64] (a unit axis put in third place), read at (0, r, 0, ch). -/
theorem cast_row (x : S1x64x64.Idx → Ideal .f32) (h : S1x64x64.ShapeCasts S1x64x1x64) (r : Fin 64) (ch : Fin 64) :
    shapeCast S1x64x1x64 x h (ix4 (0 : Fin 1) r (0 : Fin 1) ch) = x (ix3 (0 : Fin 1) r ch) :=
  shapeCast_apply x h (ix4 (0 : Fin 1) r (0 : Fin 1) ch) (ix3 (0 : Fin 1) r ch) (by
    rw [Shape.rowMajor_val_three, Shape.rowMajor_val_four]
    show (0 * 64 + r.val) * 64 + ch.val = ((0 * 64 + r.val) * 1 + 0) * 64 + ch.val
    omega)

/-- [1,256,64] cast to [1,1,256,64] (a unit axis put in second place), read at (0, 0, j, ch). -/
theorem cast_col (x : S1x256x64.Idx → Ideal .f32) (h : S1x256x64.ShapeCasts S1x1x256x64) (j : Fin 256) (ch : Fin 64) :
    shapeCast S1x1x256x64 x h (ix4 (0 : Fin 1) (0 : Fin 1) j ch) = x (ix3 (0 : Fin 1) j ch) :=
  shapeCast_apply x h (ix4 (0 : Fin 1) (0 : Fin 1) j ch) (ix3 (0 : Fin 1) j ch) (by
    rw [Shape.rowMajor_val_three, Shape.rowMajor_val_four]
    show (0 * 256 + j.val) * 64 + ch.val = ((0 * 1 + 0) * 256 + j.val) * 64 + ch.val
    omega)

/-! ## The body's product at a block index -/

/-- The body's stored value at block index (0, r, j, ch): the covariance entry times the scaled row indicator
    times the column indicator. -/
theorem pay_apply (x0 : Vec Ideal S1x64x256x64 .f32) (x1 : Vec Ideal S1x64x64 .f32) (x3 : Vec Ideal S1x256x64 .f32)
    (r : Fin 64) (j : Fin 256) (ch : Fin 64) :
    k0_pay1 x0 x1 x3 (ix4 (0 : Fin 1) r j ch) = x0 (ix4 (0 : Fin 1) r j ch) * (kk * x1 (ix3 (0 : Fin 1) r ch)) * x3 (ix3 (0 : Fin 1) j ch) := by
  unfold k0_pay1
  show x0 (ix4 (0 : Fin 1) r j ch) * (broadcastTo S1x64x256x64 _ _ (ix4 (0 : Fin 1) r j ch)) * (broadcastTo S1x64x256x64 _ _ (ix4 (0 : Fin 1) r j ch)) = _
  refine congrArg₂ (· * ·) (congrArg (x0 (ix4 (0 : Fin 1) r j ch) * ·) ?_) ?_
  · refine (bcast_row _ _ r j ch).trans ?_
    show kk * shapeCast S1x64x1x64 _ _ (ix4 (0 : Fin 1) r (0 : Fin 1) ch) = _
    refine congrArg (kk * ·) ((cast_row _ _ r ch).trans ?_)
    exact congrFun (shapeCast_self _ _) _
  · exact (bcast_col _ _ r j ch).trans ((cast_col _ _ j ch).trans (congrFun (shapeCast_self _ _) _))

/-! ## One block against the whole-array function -/

/-- The result as ONE function of the covariance array `A` and the indicator array `M`, index by index. -/
def G (A : S16x256x256x64.Idx → Ideal .f32) (M : S16x256x64.Idx → Ideal .f32) : S16x256x256x64.Idx → Ideal .f32 := fun i =>
  A i * (kk * M (ix3 (i 0) (i 1) (i 3))) * M (ix3 (i 0) (i 2) (i 3))

/-- A block of the body's product is the block of `G`: if the three input blocks are read off `A` and `M` at the
    places `e0 e1 e2`, the output block sits at `e3`, the covariance block sits where the output block does, the
    row-indicator block at the output's (batch, row, channel) and the column-indicator block at its
    (batch, column, channel), then the product at `y` is `G A M` at `e3 y`. -/
theorem block_eq (A : S16x256x256x64.Idx → Ideal .f32) (M : S16x256x64.Idx → Ideal .f32)
    (x0 : S1x64x256x64.Idx → Ideal .f32) (x1 : S1x64x64.Idx → Ideal .f32) (x3 : S1x256x64.Idx → Ideal .f32)
    (e0 e3 : S1x64x256x64.Idx → S16x256x256x64.Idx) (e1 : S1x64x64.Idx → S16x256x64.Idx) (e2 : S1x256x64.Idx → S16x256x64.Idx)
    (h0 : ∀ y, x0 y = A (e0 y)) (h1 : ∀ y, x1 y = M (e1 y)) (h3 : ∀ y, x3 y = M (e2 y))
    (he0 : ∀ y, e0 y = e3 y)
    (he1 : ∀ (r : Fin 64) (j : Fin 256) (ch : Fin 64), e1 (ix3 (0 : Fin 1) r ch)
      = ix3 (e3 (ix4 (0 : Fin 1) r j ch) 0) (e3 (ix4 (0 : Fin 1) r j ch) 1) (e3 (ix4 (0 : Fin 1) r j ch) 3))
    (he2 : ∀ (r : Fin 64) (j : Fin 256) (ch : Fin 64), e2 (ix3 (0 : Fin 1) j ch)
      = ix3 (e3 (ix4 (0 : Fin 1) r j ch) 0) (e3 (ix4 (0 : Fin 1) r j ch) 2) (e3 (ix4 (0 : Fin 1) r j ch) 3))
    (y : S1x64x256x64.Idx) :
    k0_pay1 x0 x1 x3 y = G A M (e3 y) := by
  obtain ⟨z, r, j, ch, rfl⟩ : ∃ (z : Fin 1) (r : Fin 64) (j : Fin 256) (ch : Fin 64), y = ix4 z r j ch := ⟨y 0, y 1, y 2, y 3, eq_ix4 y⟩
  obtain rfl : z = 0 := Subsingleton.elim _ _
  rw [pay_apply, h0, h1, h3, he0, he1 r j ch, he2 r j ch]
  rfl

/-! ## The host's results as the region finds them -/

variable (m : (ℓ : Loc nD τ sig) → Buf (Elt Ideal) ℓ) (ρ : Dev nD → PrngReg)

/-- The indicator array the region finds is the reference's indicator stage of the two small arguments: the two
    programs compute it by the same host operations. -/
theorem V_mf (c : Dev nD) :
    (V m c main_v8 : S16x256x64.Idx → Ideal .f32)
      = Cert.ReferenceIdeal.Read.val_main_v8 (F := Ideal) (m ((c : Thread nD τ).loc main_arg0)) (m ((c : Thread nD τ).loc main_arg2)) := by
  dsimp only [V]
  simp only [hostOps0, hostOps0_1, hostOps0_2, List.flatten_cons, List.flatten_nil, List.append_nil, List.cons_append, List.nil_append]
  after_results <;> rfl

/-- The masked mean the region finds (the program's first result) is the reference's. -/
theorem V_mu (c : Dev nD) :
    (V m c main_v4 : S16x16x16x64.Idx → Ideal .f32)
      = Cert.ReferenceIdeal.Read.val_main_v4 (F := Ideal) (m ((c : Thread nD τ).loc main_arg0)) (m ((c : Thread nD τ).loc main_arg2)) := by
  dsimp only [V]
  simp only [hostOps0, hostOps0_1, hostOps0_2, List.flatten_cons, List.flatten_nil, List.append_nil, List.cons_append, List.nil_append]
  after_results <;> rfl

/-! ## From blocks to the array -/

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- The printed index maps over the 64 grid points: the covariance window moves with the output window; the
    row-indicator window follows the output's batch and row block; the column-indicator window follows its batch
    alone; the trailing block indices are 0; batch and row block stay in range. -/
theorem idx_facts : ∀ t : Fin cfg0.N,
    win0_0.index t (0 : Fin 4) = win0_3.index t (0 : Fin 4) ∧ win0_0.index t (1 : Fin 4) = win0_3.index t (1 : Fin 4)
    ∧ win0_0.index t (2 : Fin 4) = 0 ∧ win0_0.index t (3 : Fin 4) = 0
    ∧ win0_3.index t (2 : Fin 4) = 0 ∧ win0_3.index t (3 : Fin 4) = 0
    ∧ win0_1.index t (0 : Fin 3) = win0_3.index t (0 : Fin 4) ∧ win0_1.index t (1 : Fin 3) = win0_3.index t (1 : Fin 4)
    ∧ win0_1.index t (2 : Fin 3) = 0
    ∧ win0_2.index t (0 : Fin 3) = win0_3.index t (0 : Fin 4) ∧ win0_2.index t (1 : Fin 3) = 0 ∧ win0_2.index t (2 : Fin 3) = 0
    ∧ win0_3.index t (0 : Fin 4) ≤ 15 ∧ win0_3.index t (1 : Fin 4) ≤ 3 :=
  (by decide +kernel : ∀ t : Fin grid0.N, _)

/-- Every (batch, row block) is some grid point's. -/
theorem idx_onto : ∀ (q0 : Fin 16) (q1 : Fin 4), ∃ t : Fin cfg0.N, win0_3.index t = ![q0.val, q1.val, 0, 0] :=
  (by decide +kernel : ∀ (q0 : Fin 16) (q1 : Fin 4), ∃ t : Fin grid0.N, win0_3.index t = ![q0.val, q1.val, 0, 0])

/-- The kernel's result array as one function of the arrays the region finds. -/
abbrev Gk (c : Dev nD) : S16x256x256x64.Idx → Ideal .f32 :=
  G (V m c main_arg1 : S16x256x256x64.Idx → Ideal .f32) (V m c main_v8 : S16x256x64.Idx → Ideal .f32)

/-- What grid point `t` writes back is block `t` of `Gk`. -/
theorem flushed3_eq (c : Dev nD) (t : Fin cfg0.N) :
    (dats m 0 c).flushed 3 t = ((cfg0.win 3).blk t).view.read (Elt Ideal) (Gk m c) := by
  show (cfg0.win 3).cut (grid0.coords t) ((dats m 0 c).after 3 t) = _
  rw [after0_3]
  unfold outBlock
  rw [View.canon_unit_zero hz4]
  simp only [View.ld_unit_zero (S := S1x64x256x64) hz4, View.ld_unit_zero (S := S1x64x64) hz3, View.ld_unit_zero (S := S1x256x64) hz3]
  obtain ⟨e00, e01, e02, e03, e32, e33, e10, e11, e12, e20, e21, e22, b0, b1⟩ := idx_facts t
  funext y
  refine block_eq (V m c main_arg1) (V m c main_v8) (iblk m c 0 t) (iblk m c 1 t) (iblk m c 2 t)
    (fun y => ((cfg0.win 0).blk t).view.emb y) (fun y => ((cfg0.win 3).blk t).view.emb y)
    (fun y => ((cfg0.win 1).blk t).view.emb y) (fun y => ((cfg0.win 2).blk t).view.emb y)
    (fun _ => rfl) (fun _ => rfl) (fun _ => rfl) ?_ ?_ ?_ y
  · intro y
    funext a; apply Fin.ext
    match a with
    | ⟨0, _⟩ => show win0_0.index t (0 : Fin 4) * 1 + 1 * (y 0).val = win0_3.index t (0 : Fin 4) * 1 + 1 * (y 0).val; omega
    | ⟨1, _⟩ => show win0_0.index t (1 : Fin 4) * 64 + 1 * (y 1).val = win0_3.index t (1 : Fin 4) * 64 + 1 * (y 1).val; omega
    | ⟨2, _⟩ => show win0_0.index t (2 : Fin 4) * 256 + 1 * (y 2).val = win0_3.index t (2 : Fin 4) * 256 + 1 * (y 2).val; omega
    | ⟨3, _⟩ => show win0_0.index t (3 : Fin 4) * 64 + 1 * (y 3).val = win0_3.index t (3 : Fin 4) * 64 + 1 * (y 3).val; omega
  · intro r j ch
    funext a; apply Fin.ext
    match a with
    | ⟨0, _⟩ => show win0_1.index t (0 : Fin 3) * 1 + 1 * 0 = win0_3.index t (0 : Fin 4) * 1 + 1 * 0; omega
    | ⟨1, _⟩ => show win0_1.index t (1 : Fin 3) * 64 + 1 * r.val = win0_3.index t (1 : Fin 4) * 64 + 1 * r.val; omega
    | ⟨2, _⟩ => show win0_1.index t (2 : Fin 3) * 64 + 1 * ch.val = win0_3.index t (3 : Fin 4) * 64 + 1 * ch.val; omega
  · intro r j ch
    funext a; apply Fin.ext
    match a with
    | ⟨0, _⟩ => show win0_2.index t (0 : Fin 3) * 1 + 1 * 0 = win0_3.index t (0 : Fin 4) * 1 + 1 * 0; omega
    | ⟨1, _⟩ => show win0_2.index t (1 : Fin 3) * 256 + 1 * j.val = win0_3.index t (2 : Fin 4) * 256 + 1 * j.val; omega
    | ⟨2, _⟩ => show win0_2.index t (2 : Fin 3) * 64 + 1 * ch.val = win0_3.index t (3 : Fin 4) * 64 + 1 * ch.val; omega

/-- An index of the result array lies in point `t`'s block iff each coordinate lies in the block's range. -/
theorem mem_blk3 (t : Fin cfg0.N) (i : S16x256x256x64.Idx) :
    i ∈ ((cfg0.win 3).blk t).view.set ↔ ∀ a : Fin 4, win0_3.index t a * S1x64x256x64.size a ≤ (i a).val ∧ (i a).val < win0_3.index t a * S1x64x256x64.size a + S1x64x256x64.size a := by
  show i ∈ ((View.whole main_v9).slice (win0_3.rect t)).set ↔ _
  rw [View.set_slice_whole, Rect.mem_set_unit]
  exact Iff.rfl

/-- The 64 blocks cover the result array: entry (b, p, j, ch) lies in the block of the point with batch b and row block p / 64. -/
theorem covered (i : S16x256x256x64.Idx) :
    ∃ t : Fin cfg0.N, (cfg0.win 3).flush t = true ∧ i ∈ ((cfg0.win 3).blk t).view.set := by
  have hi0 : (i 0).val < 16 := (i 0).isLt
  have hi1 : (i 1).val < 256 := (i 1).isLt
  have hi2 : (i 2).val < 256 := (i 2).isLt
  have hi3 : (i 3).val < 64 := (i 3).isLt
  obtain ⟨t, ht⟩ := idx_onto ⟨(i 0).val, hi0⟩ ⟨(i 1).val / 64, by omega⟩
  have q0 : win0_3.index t (0 : Fin 4) = (i 0).val := congrFun ht 0
  have q1 : win0_3.index t (1 : Fin 4) = (i 1).val / 64 := congrFun ht 1
  have q2 : win0_3.index t (2 : Fin 4) = 0 := congrFun ht 2
  have q3 : win0_3.index t (3 : Fin 4) = 0 := congrFun ht 3
  refine ⟨t, flush0_3 t, ?_⟩
  rw [mem_blk3]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 64 ≤ (i 1).val ∧ (i 1).val < win0_3.index t (1 : Fin 4) * 64 + 64; omega
  | ⟨2, _⟩ => show win0_3.index t (2 : Fin 4) * 256 ≤ (i 2).val ∧ (i 2).val < win0_3.index t (2 : Fin 4) * 256 + 256; omega
  | ⟨3, _⟩ => show win0_3.index t (3 : Fin 4) * 64 ≤ (i 3).val ∧ (i 3).val < win0_3.index t (3 : Fin 4) * 64 + 64; omega

/-- The result array after the run is `Gk`. -/
theorem final3 (c : Dev nD) : (dats m 0 c).arrAt 3 cfg0.N = Gk m c :=
  (dats m 0 c).arrAt_eq_of_cover 3 (Gk m c) (fun t _ => flushed3_eq m c t) covered

/-! ## The kernel's run, read -/

/-- Every weakly fair execution of the idealized kernel program terminates with the masked mean at the reference's
    stage of the two small arguments, the result array at `G` of the covariance argument and the reference's
    indicator stage, and the arguments unchanged. -/
theorem kernel_run : θ_run defs (onTc (τ := τ) (main (F := Ideal))) ⟨m, fun _ => 0, ρ⟩ fun r => ∀ c : Dev nD,
      r.2.mem ((c : Thread nD τ).loc main_v4)
        = Cert.ReferenceIdeal.Read.val_main_v4 (F := Ideal) (m ((c : Thread nD τ).loc main_arg0)) (m ((c : Thread nD τ).loc main_arg2))
      ∧ r.2.mem ((c : Thread nD τ).loc main_v9)
        = G (m ((c : Thread nD τ).loc main_arg1))
            (Cert.ReferenceIdeal.Read.val_main_v8 (F := Ideal) (m ((c : Thread nD τ).loc main_arg0)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).2 main_v4 (Pipeline.mem_restRefs_of main_v4 (by decide) (by decide))).trans (V_mu m c),
      ((h c).1 3).trans ((final3 m c).trans (by unfold Gk; rw [V_main_arg1, V_mf])),
      kept_main_arg0 m r h c, kept_main_arg1 m r h c, kept_main_arg2 m r h c⟩)
    (run_main m ρ)

/-! ## The reference computes the same function -/

open Cert.ReferenceIdeal.Read in
/-- The reference's result stage is `G` of the covariance argument and its indicator stage: at (b, p, j, ch) it is
    ((k · S) · M[b,p,ch]) · M[b,j,ch], the kernel's S · (k · M[b,p,ch]) · M[b,j,ch] regrouped. -/
theorem ref_is_G (x0 x2 : Cert.ReferenceIdeal.S16x16x16x64.Idx → Ideal .f32) (x1 : Cert.ReferenceIdeal.S16x256x256x64.Idx → Ideal .f32) :
    val_main_v16 (F := Ideal) x0 x1 x2 = G x1 (val_main_v8 (F := Ideal) x0 x2) := by
  funext i
  have e1 : idx_main_v11 (idx_main_v12 i) = ix3 (i 0) (i 1) (i 3) :=
    funext fun a => Fin.ext (by match a with | ⟨0, _⟩ => rfl | ⟨1, _⟩ => rfl | ⟨2, _⟩ => rfl)
  have e2 : idx_main_v14 (idx_main_v15 i) = ix3 (i 0) (i 2) (i 3) :=
    funext fun a => Fin.ext (by match a with | ⟨0, _⟩ => rfl | ⟨1, _⟩ => rfl | ⟨2, _⟩ => rfl)
  rw [val_main_v16_apply, val_main_v13_apply, val_main_v10_apply, val_main_v9_apply, val_main_cst_3_apply,
    val_main_v12_apply, val_main_v11_apply, val_main_v15_apply, val_main_v14_apply, e1, e2]
  show kk * x1 i * val_main_v8 (F := Ideal) x0 x2 (ix3 (i 0) (i 1) (i 3)) * val_main_v8 (F := Ideal) x0 x2 (ix3 (i 0) (i 2) (i 3))
    = x1 i * (kk * val_main_v8 (F := Ideal) x0 x2 (ix3 (i 0) (i 1) (i 3))) * val_main_v8 (F := Ideal) x0 x2 (ix3 (i 0) (i 2) (i 3))
  rw [mul_comm kk (x1 i), mul_assoc (x1 i) kk]

end Cert.KernelIdeal.SigmaValue

end
-- ==== Proof.lean ====
/-
  The masked covariance of a variational dropout layer: a kernel against its array-language reference.

  Both programs compute on the host
      mu_out = where(drop_mask ≥ 0.2, 1.25 · mu_in, 0),     M = [mu_out ≠ 0]  reshaped to [16, 256, 64].
  The reference then forms  Sigma_out[b,p,j,ch] = ((k · Sigma_in[b,p,j,ch]) · M[b,p,ch]) · M[b,j,ch]  with
  k = 1.5625 by whole-array products; the kernel forms, over a 16 × 4 grid of [1,64,256,64] blocks,
  Sigma_in[b,p,j,ch] · (k · M[b,p,ch]) · M[b,j,ch], reading M through two windows (the block's rows, and all rows).

  Frames: the kernel programs' runs are in Proof/SigmaFrameBits.lean (the printed program) and
  Proof/SigmaFrameIdeal.lean (its idealization), both over Proof/LibSharedFrame.lean, the frame run for windows that
  share an array; the reference's frame is its run with the results dropped.
  Preservation: the idealization rewrote nothing, so the claim is `True`.
  Equivalence (Proof/SigmaValue.lean): the 64 blocks tile the result, each block is the block of one whole-array
  function `G`, and the reference's result stage is the same `G` by commutativity and associativity of the product of
  extended reals. The first result, mu_out, is the same host term in both programs.
-/
import proofs.«157371_j39779987095992_2_alg».proof.Defs
import proofs.«157371_j39779987095992_2_alg».proof.Proof.Gen.Kernel
import proofs.«157371_j39779987095992_2_alg».proof.Proof.Gen.KernelIdeal
import proofs.«157371_j39779987095992_2_alg».proof.Proof.Gen.ReferenceIdeal
import proofs.«157371_j39779987095992_2_alg».proof.Proof.Gen.Pre_finite_inputs
import proofs.«157371_j39779987095992_2_alg».proof.Proof.SigmaFrameBits
import proofs.«157371_j39779987095992_2_alg».proof.Proof.SigmaFrameIdeal
import proofs.«157371_j39779987095992_2_alg».proof.Proof.SigmaValue
import Idealize.ShloMosaic.Adequacy
import Idealize.ShloMosaic.Init

noncomputable section

namespace Cert.Proof

open Idealize.ShloMosaic Idealize.ShloMosaic.TcCoe Idealize.SL.Sem

/-- The printed kernel program runs to the end, faults nowhere, and leaves its arguments unchanged. -/
theorem frame_k : Cert.frame_Kernel := fun m ρ _ => Cert.Kernel.Sigma.frame m ρ

/-- So does its idealization. -/
theorem frame_ki : Cert.frame_KernelIdeal := fun m ρ _ => Cert.KernelIdeal.Sigma.frame m ρ

/-- The reference is host operations only: its frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the three arguments both idealized programs end with the same two results: the masked
    mean (one host term in both) and the masked covariance (`G` of the covariance argument and the indicator). -/
theorem algebraic : Cert.algebraic_KernelIdeal_ReferenceIdeal := by
  intro m ρ m' ρ' _ hagree
  refine ⟨_, _, Cert.KernelIdeal.SigmaValue.kernel_run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v4_eq, (hagree c).1, (hagree c).2.2]
  · rw [(h c).2.1, Cert.ReferenceIdeal.Read.val_main_v16_eq, Cert.KernelIdeal.SigmaValue.ref_is_G, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
